-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x128 : Shape := ⟨2, ![2097152, 128]⟩
abbrev S_ : Shape := ⟨0, ![]⟩
abbrev S2097152 : Shape := ⟨1, ![2097152]⟩

class Facts : Prop where
  bcast_S_S2097152x128 : S_.BroadcastsInDim S2097152x128 (![] : Fin 0 → Fin S2097152x128.rank)
  reducesTo_S2097152x128_S_d0_1 : S2097152x128.ReducesTo [0, 1] S_
  h_S_ : 0 < S_.numel
  reducesTo_S2097152x128_S2097152_d1 : S2097152x128.ReducesTo [1] S2097152
  bcast_S_S2097152 : S_.BroadcastsInDim S2097152 (![] : Fin 0 → Fin S2097152.rank)
  reducesTo_S2097152_S_d0 : S2097152.ReducesTo [0] S_

variable [Facts]

def fn {F : FTy → Type} [FloatOps F] (main_arg0 : FVec F S2097152x128 .f32) : IVec S_ 1 :=
  let main_v0 : FVec F S2097152x128 .f32 := Host.absf main_arg0
  let main_cst : FVec F S_ .f32 := constant S_ .f32 0x7F800000#32
  let main_v1 : FVec F S2097152x128 .f32 := broadcastInDim S2097152x128 ![] bcast_S_S2097152x128 main_cst
  let main_v2 : IVec S2097152x128 1 := cmpf .olt main_v0 main_v1
  let main_c : IVec S_ 1 := constantI S_ 1 1#1
  let main_v3 : IVec S_ 1 := (fun x v => Host.reduce IntOp.andi x v reducesTo_S2097152x128_S_d0_1 h_S_) main_v2 main_c
  let main_cst_0 : FVec F S_ .f32 := constant S_ .f32 0x00000000#32
  let main_v4 : FVec F S2097152 .f32 := (fun x v => Host.reduceAdd x v reducesTo_S2097152x128_S2097152_d1 h_S_) main_arg0 main_cst_0
  let main_cst_1 : FVec F S_ .f32 := constant S_ .f32 0x00000000#32
  let main_v5 : FVec F S2097152 .f32 := broadcastInDim S2097152 ![] bcast_S_S2097152 main_cst_1
  let main_v6 : IVec S2097152 1 := cmpf .une main_v4 main_v5
  let main_c_2 : IVec S_ 1 := constantI S_ 1 1#1
  let main_v7 : IVec S_ 1 := (fun x v => Host.reduce IntOp.andi x v reducesTo_S2097152_S_d0 h_S_) main_v6 main_c_2
  let main_v8 : IVec S_ 1 := andi main_v3 main_v7
  main_v8
-- ==== Kernel.lean ====
abbrev S2097152x128 : Shape := ⟨2, ![2097152, 128]⟩
abbrev S29128x128 : Shape := ⟨2, ![29128, 128]⟩
abbrev S29128 : Shape := ⟨1, ![29128]⟩
abbrev S29128x1 : Shape := ⟨2, ![29128, 1]⟩

abbrev nBuf : Space → Nat
  | .hbm => 2
  | .vmem => 4
  | .smem => 0
  | _ => 0

abbrev bufTy : (tb : Table) → Fin (tcTables nBuf tb) → BufTy
  | .hbm, ⟨0, _⟩ => ⟨S2097152x128, .f32⟩
  | .hbm, ⟨1, _⟩ => ⟨S2097152x128, .f32⟩
  | .local _ .vmem, ⟨0, _⟩ => ⟨S29128x128, .f32⟩
  | .local _ .vmem, ⟨1, _⟩ => ⟨S29128x128, .f32⟩
  | .local _ .vmem, ⟨2, _⟩ => ⟨S29128x128, .f32⟩
  | .local _ .vmem, ⟨3, _⟩ => ⟨S29128x128, .f32⟩
  | _, _ => ⟨S2097152x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S29128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S29128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S29128x128_S29128x128_0_0 : ∀ a, (![0, 0] : Fin 2 → Nat) a + S29128x128.size a ≤ S29128x128.size a
  h_S29128x128 : 0 < S29128x128.numel
  reduces_S29128x128_S29128 : S29128x128.Reduces [1] S29128
  shapeCasts_S29128_S29128x1 : S29128.ShapeCasts S29128x1
  broadcasts_S29128x1_S29128x128 : S29128x1.Broadcasts S29128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S29128x128.size a < S2097152x128.size a
  hwx0_0 : ∀ i : grid0.Coords, EltTy.bits .f32 = 32 ∨ (Rect.unit (s := S2097152x128) (fun a => cc0_transform_0 i a * S29128x128.size a) (fun a => (Pipeline.Clip.of (cc0_transform_0 i a) (S29128x128.size a) (S2097152x128.size a)).extent (S29128x128.size a)) fun a => Pipeline.Clip.inb (Pipeline.Clip.ok_of (hstart0_0 i a))).WholeWords (EltTy.packing .f32)
  hwxs0_0 : ∀ i : grid0.Coords, EltTy.bits .f32 = 32 ∨ (Rect.unit (s := S29128x128) (fun _ => 0) (fun a => (Pipeline.Clip.of (cc0_transform_0 i a) (S29128x128.size a) (S2097152x128.size a)).extent (S29128x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S29128x128.size a < S2097152x128.size a
  hwx0_1 : ∀ i : grid0.Coords, EltTy.bits .f32 = 32 ∨ (Rect.unit (s := S2097152x128) (fun a => cc0_transform_1 i a * S29128x128.size a) (fun a => (Pipeline.Clip.of (cc0_transform_1 i a) (S29128x128.size a) (S2097152x128.size a)).extent (S29128x128.size a)) fun a => Pipeline.Clip.inb (Pipeline.Clip.ok_of (hstart0_1 i a))).WholeWords (EltTy.packing .f32)
  hwxs0_1 : ∀ i : grid0.Coords, EltTy.bits .f32 = 32 ∨ (Rect.unit (s := S29128x128) (fun _ => 0) (fun a => (Pipeline.Clip.of (cc0_transform_1 i a) (S29128x128.size a) (S2097152x128.size a)).extent (S29128x128.size a)) fun a => (Nat.zero_add _).trans_le (Pipeline.Clip.extent_le (Pipeline.Clip.ok_of (hstart0_1 i a)))).WholeWords (EltTy.packing .f32)

variable [Facts₀]

abbrev win0_0 : Pipeline.Window sig grid0 :=
  Pipeline.Window.ofSpecClip (Memref.whole main_arg0) S29128x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v0) S29128x128.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2097152x128 : Shape := ⟨2, ![2097152, 128]⟩
abbrev S_ : Shape := ⟨0, ![]⟩
abbrev S2097152 : Shape := ⟨1, ![2097152]⟩
abbrev S2097152x1 : Shape := ⟨2, ![2097152, 1]⟩

abbrev nBuf : Space → Nat
  | .hbm => 6
  | .vmem => 0
  | .smem => 0
  | _ => 0

abbrev bufTy : (tb : Table) → Fin (tcTables nBuf tb) → BufTy
  | .hbm, ⟨0, _⟩ => ⟨S2097152x128, .f32⟩
  | .hbm, ⟨1, _⟩ => ⟨S_, .f32⟩
  | .hbm, ⟨2, _⟩ => ⟨S2097152, .f32⟩
  | .hbm, ⟨3, _⟩ => ⟨S2097152x1, .f32⟩
  | .hbm, ⟨4, _⟩ => ⟨S2097152x128, .f32⟩
  | .hbm, ⟨5, _⟩ => ⟨S2097152x128, .f32⟩
  | _, _ => ⟨S2097152x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  reducesTo_S2097152x128_S2097152_d1 : S2097152x128.ReducesTo [1] S2097152
  h_S_ : 0 < S_.numel
  bcast_S2097152_S2097152x1_0 : S2097152.BroadcastsInDim S2097152x1 (![0] : Fin 1 → Fin S2097152x1.rank)
  bcast_S2097152x1_S2097152x128_0_1 : S2097152x1.BroadcastsInDim S2097152x128 (![0, 1] : Fin 2 → Fin S2097152x128.rank)

variable [Facts₀]

class Facts : Prop extends Facts₀ where

variable [Facts]
-- ==== Proof.WordBody.lean ====
/-
  The body of the row-normalising kernel, run once on whole staging buffers.

  The body loads the whole input block `X` (29128 rows of 128 lanes), forms for every row the sum of its
  128 lanes, the quotient of one by that sum, and the product of each entry with its row's quotient, and stores
  that product over the whole output block. Whatever the output block held before is read once and not used.
  So from the input buffer at `X` and the output buffer at anything, the body ends with the input buffer
  at `X` and the output buffer at the payload `k0_pay1 X` — for every float instance, since nothing here
  looks inside the arithmetic.
-/
import proofs.«175311_g57389353009667_feedfinal_98_8_alg».proof.Proof.Gen.Kernel.Frame
import proofs.«175311_g57389353009667_feedfinal_98_8_alg».proof.Proof.Gen.Kernel.Skeleton
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The one rectangle the body accesses: the whole block, from the origin. -/
abbrev wholeBlock : Rect S29128x128 := Rect.unit (s := S29128x128) ![0, 0] S29128x128.size inb_S29128x128_S29128x128_0_0

theorem origin_eq : (![0, 0] : Fin 2 → Nat) = fun _ => 0 := funext fun a => by fin_cases a <;> rfl

/-- A single store over the whole block covers it. -/
theorem cover_whole (p0 : Vec F S29128x128 .f32) (y : S29128x128.Idx) :
    ∃ pc ∈ ([⟨wholeBlock, p0⟩] : List (View.Piece (Elt F) S29128x128 .f32)), y ∈ pc.1.set :=
  View.cover_of_tiled [⟨wholeBlock, p0⟩] S29128x128.size (by rfl) y

/-- The body's triple: input buffer at `x0`, output buffer at anything; afterwards the input buffer as it was and
    the output buffer at the payload of `x0`. -/
theorem sound_kernel (c : Dev nD) (E : Set ℕ) (i : grid0.Coords)
    (arg1 : Memref sig .tc .vmem S29128x128 .f32) (harg1 : arg1.IsWhole)
    (arg2 : Memref sig .tc .vmem S29128x128 .f32) (harg2 : arg2.IsWhole)
    (x0 : Vec F S29128x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 x0)) -∗ K ⟨⟩))
      ⊢ wp frame (wpE (defs₀ (F := F)) Variants.none c none) E (cc0__norm_body i arg1 harg1 arg2 harg2) K := by
  simp only [cc0__norm_body_eq_skeleton]; unfold cc0__norm_body_skel
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  rw [View.read_writes_eq_canon _ _ _ (cover_whole _), View.canon_unit_zero origin_eq]
  simp only [View.readAt_eq_ld, View.ld_unit_zero (S := S29128x128) origin_eq]

end Cert.Kernel.Hand

end
-- ==== Proof.WordData.lean ====
/-
  The proof data of the pipelined kernel: what each staging buffer holds before and after the body at every grid point.

  The grid has 72 points; point `t` handles rows 29128·t … of the 2097152-row array, and the last block overhangs
  the array by 64 rows. A fetch first overwrites the whole staging buffer with words nothing names and then lands the
  rows of the block that lie inside the array, so before the body the input buffer holds the array's rows where the
  block is inside the array and arbitrary words `d` on the overhanging rows. The data names the input buffer's
  contents with the overhang filled by the zero word and names nothing of the output buffer; only the rows
  inside the array are ever stated of a buffer handed back.
-/
import proofs.«175311_g57389353009667_feedfinal_98_8_alg».proof.Proof.WordBody
import proofs.«175311_g57389353009667_feedfinal_98_8_alg».proof.Proof.Gen.Kernel.Points
import proofs.«175311_g57389353009667_feedfinal_98_8_alg».proof.Proof.Gen.Kernel.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of zero words: the filler for the rows of a block that overhang the array. -/
def pad : S29128x128.Idx → Elt F .f32 := fun _ => Scalar.ofBits .f32 0#32

/-- The input block at point `t`, its rows inside the array read off the array, the overhang zero. -/
def xin (c : Dev nD) (t : Fin cfg0.N) : S29128x128.Idx → Elt F .f32 :=
  win0_0.fill (grid0.coords t) pad (iblk m c 0 t)

/-- The output window is forgotten: nothing reads what the kernel leaves in it. -/
def forgets0 : Fin 2 → Bool := fun w => w.val == 1

/-- The proof data on core `c`: arrays as the region finds them; after the body the input buffer at `xin`, the
    output buffer unnamed; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xin m c t
    | ⟨1, h⟩ => Pipeline.Dat.unnamed (cfg := cfg0) ⟨1, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xin m c t := by dsimp only [dats]

/-- The input window is fetched at every point: its buffer holds the block's rows inside the array and `d` on the
    overhang. -/
theorem before0_0 (c : Dev nD) (t : Fin cfg0.N) (d) :
    (dats m 0 c).before 0 t d = win0_0.fill (grid0.coords t) d (iblk m c 0 t) := by
  rw [(dats m 0 c).before_fetched 0 t (fetch0_0 t) d]; rfl

/-- The rows inside the array of `xin` are the block's. -/
theorem cut_xin (c : Dev nD) (t : Fin cfg0.N) : win0_0.cut (grid0.coords t) (xin m c t) = iblk m c 0 t :=
  win0_0.cut_fill _ _ _

end Cert.Kernel.Hand

end
-- ==== Proof.WordRun.lean ====
/-
  The word-level kernel's run and frame.

  The frame claim says nothing of the result array, so the output window is forgotten: the body is handed its buffer at
  anything and hands it back at anything. The input buffer comes back as it was, which is all that is stated of it —
  on the rows inside the array, the block read off the argument array. The argument array is never written.
-/
import proofs.«175311_g57389353009667_feedfinal_98_8_alg».proof.Proof.WordData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ X, owns (c : Thread nD τ) (st0_1 t) fullShare X))

/-- What it returns: the input buffer stated on the rows inside the array, the output buffer at anything. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ (∃ X, owns (c : Thread nD τ) (st0_1 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0]
  iintro ⟨HΦ, Ho, ⟨%d0, H0⟩, ⟨%d1, H1⟩⟩
  rw [before0_0 m c t d0]
  iapply (sound_kernel (F := F) c Set.univ (grid0.coords t) _ _ _ _ (win0_0.fill (grid0.coords t) d0 (iblk m c 0 t)) _)
  isplitl [H0]; · iexact H0
  isplitl [H1]; · iexists _; iexact H1
  iintro ⟨H0, H1⟩
  isplitl [HΦ]; · iexact HΦ
  isplitl [Ho]; · iexact Ho
  isplitl [H0]
  · iexists d0
    rw [cut_xin]; iexact H0
  · iexists _; iexact H1

theorem body_obligation (c : Dev nD) :
    BodyObligationLoose (dats (F := F) m 0 c) (defs₀ (F := F)) Variants.none () Set.univ forgets0 := fun t => by
  rw [bigSep_W0, bigSep_W0]
  exact sound_body m c t

set_option backward.isDefEq.respectTransparency.types false in
/-- Every weakly fair execution of @main terminates with the input array unchanged, nothing stated of the result. -/
theorem run_main : θ_run defs (onTc (τ := τ) (main (F := F))) (s₀ m ρ)
    (Pipeline.RDat.FramePost (cfgs 0) (fun c => (dats m 0 c).toRForget forgets0) (V m)) :=
  Pipeline.RDat.θ_run_frame cfgs (0 : Fin 1) launch0 defs₀ Variants.none (fun c => (dats m 0 c).toRForget forgets0) m ρ main
    (hbody := fun c => (body_obligation m c).toRForget)
    (hshare := fun c => ((dats m 0 c).toRForget forgets0).share_full fun _ => rfl)
    (howed := fun _ _ => rfl) (V := V m) (hmain := hmain m Variants.none) (hA := A_eq m) (hΦ := fun _ _ => rfl)

/-- The frame: it runs to the end and leaves its argument array as it was (an input array is never written). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
    (Eq.mp (congrFun (((dats m 0 c).toRForget forgets0).ArrAt_in 0 rfl _) _) ((h c).1 0)).trans
      ((A_eq m c 0).trans (V_main_arg0 m c))) (run_main m ρ)

end Cert.Kernel.Hand

end
-- ==== Proof.IdealBody.lean ====
/-
  The body of the row-normalising kernel, run once on whole staging buffers.

  The body loads the whole input block `X` (29128 rows of 128 lanes), forms for every row the sum of its
  128 lanes, the quotient of one by that sum, and the product of each entry with its row's quotient, and stores
  that product over the whole output block. Whatever the output block held before is read once and not used.
  So from the input buffer at `X` and the output buffer at anything, the body ends with the input buffer
  at `X` and the output buffer at the payload `k0_pay1 X` — for every float instance, since nothing here
  looks inside the arithmetic.
-/
import proofs.«175311_g57389353009667_feedfinal_98_8_alg».proof.Proof.Gen.KernelIdeal.Frame
import proofs.«175311_g57389353009667_feedfinal_98_8_alg».proof.Proof.Gen.KernelIdeal.Skeleton
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The one rectangle the body accesses: the whole block, from the origin. -/
abbrev wholeBlock : Rect S29128x128 := Rect.unit (s := S29128x128) ![0, 0] S29128x128.size inb_S29128x128_S29128x128_0_0

theorem origin_eq : (![0, 0] : Fin 2 → Nat) = fun _ => 0 := funext fun a => by fin_cases a <;> rfl

/-- A single store over the whole block covers it. -/
theorem cover_whole (p0 : Vec F S29128x128 .f32) (y : S29128x128.Idx) :
    ∃ pc ∈ ([⟨wholeBlock, p0⟩] : List (View.Piece (Elt F) S29128x128 .f32)), y ∈ pc.1.set :=
  View.cover_of_tiled [⟨wholeBlock, p0⟩] S29128x128.size (by rfl) y

/-- The body's triple: input buffer at `x0`, output buffer at anything; afterwards the input buffer as it was and
    the output buffer at the payload of `x0`. -/
theorem sound_kernel (c : Dev nD) (E : Set ℕ) (i : grid0.Coords)
    (arg1 : Memref sig .tc .vmem S29128x128 .f32) (harg1 : arg1.IsWhole)
    (arg2 : Memref sig .tc .vmem S29128x128 .f32) (harg2 : arg2.IsWhole)
    (x0 : Vec F S29128x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 x0)) -∗ K ⟨⟩))
      ⊢ wp frame (wpE (defs₀ (F := F)) Variants.none c none) E (cc0__norm_body i arg1 harg1 arg2 harg2) K := by
  simp only [cc0__norm_body_eq_skeleton]; unfold cc0__norm_body_skel
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  rw [View.read_writes_eq_canon _ _ _ (cover_whole _), View.canon_unit_zero origin_eq]
  simp only [View.readAt_eq_ld, View.ld_unit_zero (S := S29128x128) origin_eq]

end Cert.KernelIdeal.Hand

end
-- ==== Proof.IdealData.lean ====
/-
  The proof data of the pipelined kernel: what each staging buffer holds before and after the body at every grid point.

  The grid has 72 points; point `t` handles rows 29128·t … of the 2097152-row array, and the last block overhangs
  the array by 64 rows. A fetch first overwrites the whole staging buffer with words nothing names and then lands the
  rows of the block that lie inside the array, so before the body the input buffer holds the array's rows where the
  block is inside the array and arbitrary words `d` on the overhanging rows. The data names the input buffer's
  contents with the overhang filled by the zero word, and the output buffer's as the payload of that; only the rows
  inside the array are ever stated of a buffer handed back.
-/
import proofs.«175311_g57389353009667_feedfinal_98_8_alg».proof.Proof.IdealBody
import proofs.«175311_g57389353009667_feedfinal_98_8_alg».proof.Proof.Gen.KernelIdeal.Points
import proofs.«175311_g57389353009667_feedfinal_98_8_alg».proof.Proof.Gen.KernelIdeal.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of zero words: the filler for the rows of a block that overhang the array. -/
def pad : S29128x128.Idx → Elt F .f32 := fun _ => Scalar.ofBits .f32 0#32

/-- The input block at point `t`, its rows inside the array read off the array, the overhang zero. -/
def xin (c : Dev nD) (t : Fin cfg0.N) : S29128x128.Idx → Elt F .f32 :=
  win0_0.fill (grid0.coords t) pad (iblk m c 0 t)

/-- The proof data on core `c`: arrays as the region finds them; after the body the input buffer at `xin` and the
    output buffer at its payload; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xin m c t
    | ⟨1, _⟩ => k0_pay1 (xin m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xin m c t := by dsimp only [dats]
theorem after0_1 (c : Dev nD) (t : Fin cfg0.N) : (dats m 0 c).after 1 t = k0_pay1 (xin m c t) := by dsimp only [dats]

/-- The input window is fetched at every point: its buffer holds the block's rows inside the array and `d` on the
    overhang. -/
theorem before0_0 (c : Dev nD) (t : Fin cfg0.N) (d) :
    (dats m 0 c).before 0 t d = win0_0.fill (grid0.coords t) d (iblk m c 0 t) := by
  rw [(dats m 0 c).before_fetched 0 t (fetch0_0 t) d]; rfl

/-- The output window is written back at every point: its buffer is fresh at every point. -/
theorem before0_1 (c : Dev nD) (t : Fin cfg0.N) (d) : (dats m 0 c).before 1 t d = d :=
  (dats m 0 c).before_out_reset 1 rfl t (by
    by_cases h : t.val = 0
    · exact .inl h
    · exact .inr ⟨h, flush0_1 _⟩) d

/-- The rows inside the array of `xin` are the block's. -/
theorem cut_xin (c : Dev nD) (t : Fin cfg0.N) : win0_0.cut (grid0.coords t) (xin m c t) = iblk m c 0 t :=
  win0_0.cut_fill _ _ _

end Cert.KernelIdeal.Hand

end
-- ==== Proof.LibLayout.lean ====
/-
  Layout operations on a trailing unit axis, read at an index written by coordinates.

  A keep-dims value has a trailing axis of extent one.  Adding that axis by a shape cast, dropping it again, and
  broadcasting along it each read ONE element of the operand: the element with the same leading coordinates (and
  coordinate 0 on the unit axis).  Stated for any extents, at ranks 1–4, over indices built by coordinates.
-/
import Idealize.ShloMosaic.Lib.Pipeline.Value
import Idealize.ShloMosaic.Lib.ValueIdx
import Idealize.ShloMosaic.Lib.ValueLayout

namespace Cert.Bridge.Layout

open Idealize.ShloMosaic Idealize.ShloMosaic.ValueIdx

variable {α : Type}

/-- An `[a, b, 1]` array broadcast to `[a, b, n]` reads, at `(i, j, k)`, the operand at `(i, j, 0)`. -/
theorem broadcastTo_ab1_abn_apply {a b n : ℕ} (v : (⟨3, ![a, b, 1]⟩ : Shape).Idx → α)
    (h : (⟨3, ![a, b, 1]⟩ : Shape).Broadcasts ⟨3, ![a, b, n]⟩) (i : Fin a) (j : Fin b) (k : Fin n) :
    broadcastTo ⟨3, ![a, b, n]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, b, c, 1]` array broadcast to `[a, b, c, n]` reads, at `(i, j, k, l)`, the operand at `(i, j, k, 0)`. -/
theorem broadcastTo_abc1_abcn_apply {a b c n : ℕ} (v : (⟨4, ![a, b, c, 1]⟩ : Shape).Idx → α)
    (h : (⟨4, ![a, b, c, 1]⟩ : Shape).Broadcasts ⟨4, ![a, b, c, n]⟩) (i : Fin a) (j : Fin b) (k : Fin c) (l : Fin n) :
    broadcastTo ⟨4, ![a, b, c, n]⟩ v h (ix4 i j k l) = v (ix4 i j k (0 : Fin 1)) := by
  refine broadcastTo_apply v h (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

/-- An `[a, 1]` column broadcast to `[a, n]` reads, at `(i, j)`, the operand at `(i, 0)`. -/
theorem broadcastTo_a1_an_apply {a n : ℕ} (v : (⟨2, ![a, 1]⟩ : Shape).Idx → α)
    (h : (⟨2, ![a, 1]⟩ : Shape).Broadcasts ⟨2, ![a, n]⟩) (i : Fin a) (j : Fin n) :
    broadcastTo ⟨2, ![a, n]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, c]` array cast to `[a, b, c, 1]` reads, at `(i, j, k, u)`, the operand at `(i, j, k)`. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_four, Shape.rowMajor_val_three]
    show (i.val * b + j.val) * c + k.val = ((i.val * b + j.val) * c + k.val) * 1 + u.val
    rw [hu, Nat.mul_one, Nat.add_zero])

/-- An `[a, b, c, 1]` array cast to `[a, b, c]` reads, at `(i, j, k)`, the operand at `(i, j, k, 0)`. -/
theorem shapeCast_abc1_abc_apply {a b c : ℕ} (x : (⟨4, ![a, b, c, 1]⟩ : Shape).Idx → α)
    (h : (⟨4, ![a, b, c, 1]⟩ : Shape).ShapeCasts ⟨3, ![a, b, c]⟩) (i : Fin a) (j : Fin b) (k : Fin c) :
    shapeCast ⟨3, ![a, b, c]⟩ x h (ix3 i j k) = x (ix4 i j k (0 : Fin 1)) :=
  shapeCast_apply x h _ _ (by
    rw [Shape.rowMajor_val_four, Shape.rowMajor_val_three]
    show ((i.val * b + j.val) * c + k.val) * 1 + 0 = (i.val * b + j.val) * c + k.val
    rw [Nat.mul_one, Nat.add_zero])

/-- An `[a]` vector cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Bridge.Layout
-- ==== Proof.LibSplit.lean ====
/-
  Small facts on the extended reals, stated for any extents.

  * A sum over K = a + b + c consecutive indices is the sum over the first a, plus the sum over the next b, plus the
    sum over the last c.  Only associativity of addition is used, so it holds with infinite terms too.
  * Multiplying by the reciprocal 1 / d of a divisor d ≠ 0 is dividing by d, for every extended real numerator:
    off zero the quotient x / d is x · d⁻¹, and 1 / d is 1 · d⁻¹ = d⁻¹.
  * The larger of anything and 1 is not zero.
  * The product of an M×K by a K×N matrix, accumulated into a zero splat or not, has at entry (r, c) the sum over k of
    X(r,k) · W(k,c).
-/
import Idealize.ShloMosaic.Lib.StackMember
import Idealize.ShloMosaic.Lib.KernelVsHost
import Idealize.ShloMosaic.Lib.ValueIdx
import Idealize.ShloMosaic.PureOps.Ideal.Laws

noncomputable section

namespace Cert.Bridge.Split

open Idealize.ShloMosaic Idealize.ShloMosaic.ValueIdx
open scoped BigOperators

/-- A sum over a + b + c indices, taken in three consecutive runs. -/
theorem sum_three {M : Type*} [AddCommMonoid M] {a b c K : ℕ} (hK : a + b + c = K) (f : Fin K → M) :
    ∑ j : Fin K, f j
      = (∑ j : Fin a, f ⟨j.val, by omega⟩ + ∑ j : Fin b, f ⟨a + j.val, by omega⟩)
        + ∑ j : Fin c, f ⟨a + b + j.val, by omega⟩ := by
  subst hK
  rw [Fin.sum_univ_add, Fin.sum_univ_add]
  rfl

/-- The float word of 1.0 reads the real number one. -/
theorem ofBits_one_f32 : Ideal.ofBits .f32 0x3F800000#32 = 1 := by
  simp [Ideal.ofBits, Ideal.ieee, -EReal.coe_mul]; norm_num

/-- Times the reciprocal of a nonzero divisor is the quotient by it, whatever the numerator. -/
theorem mul_one_div {one d : EReal} (h1 : one = 1) (hd : d ≠ 0) (s : EReal) :
    s * Ideal.div one d = Ideal.div s d := by
  subst h1
  unfold Ideal.div
  rw [if_neg hd, if_neg hd, one_mul]

/-- The larger of anything and one is at least one, so it is not zero. -/
theorem max_one_ne_zero {one : EReal} (h1 : one = 1) (x : EReal) : max x one ≠ 0 := by
  subst h1
  exact ne_of_gt (lt_of_lt_of_le zero_lt_one (le_max_right x 1))

variable {M K N : ℕ}

/-- A kernel's product into the zero splat, with the plain contraction, at entry (r, c). -/
theorem matmul_zero_plain_apply {φ₁ φ₂ : FTy} (d : DotDims ⟨2, ![M, K]⟩ ⟨2, ![K, N]⟩ ⟨2, ![M, N]⟩)
    (hd : d = DotDims.plain M K N) (X : FVec Ideal ⟨2, ![M, K]⟩ φ₁) (W : FVec Ideal ⟨2, ![K, N]⟩ φ₂)
    (r : Fin M) (c : Fin N) :
    matmul d none X W (constant ⟨2, ![M, N]⟩ .f32 0x00000000#32) (ix2 r c) = ∑ k : Fin K, X (ix2 r k) * W (ix2 k c) := by
  subst hd
  rw [matmul_zero_eq_dotGeneral]
  exact StackMember.dotGeneral_plain_apply none X W r c

/-- A host's product with the plain contraction, at entry (r, c). -/
theorem dotGeneral_plain_apply {φ₁ φ₂ : FTy} (d : DotDims ⟨2, ![M, K]⟩ ⟨2, ![K, N]⟩ ⟨2, ![M, N]⟩)
    (hd : d = DotDims.plain M K N) (X : FVec Ideal ⟨2, ![M, K]⟩ φ₁) (W : FVec Ideal ⟨2, ![K, N]⟩ φ₂)
    (r : Fin M) (c : Fin N) :
    Host.dotGeneral d none X W (ix2 r c) = ∑ k : Fin K, X (ix2 r k) * W (ix2 k c) := by
  subst hd
  exact StackMember.dotGeneral_plain_apply none X W r c

end Cert.Bridge.Split

end
-- ==== Proof.IdealPayload.lean ====
/-
  The kernel's payload read at one entry, over the extended reals.

  For a block `X` of 29128 rows and 128 lanes, the stored value at row `p`, lane `q` is
      X(p, q) · (1 / Σ_k X(p, k)),
  the sum over the 128 lanes of row `p`: the lane reduction is that sum, the cast to a column and the broadcast
  back along the lanes each read the row's one entry, and the constant is the number one.
  Consequently the value at a row depends on that row of `X` alone.
-/
import proofs.«175311_g57389353009667_feedfinal_98_8_alg».proof.Proof.Gen.KernelIdeal.Skeleton
import proofs.«175311_g57389353009667_feedfinal_98_8_alg».proof.Proof.LibLayout
import proofs.«175311_g57389353009667_feedfinal_98_8_alg».proof.Proof.LibSplit
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

/-- The lane sum of row `p`. -/
theorem laneSum_apply (X : FVec Ideal S29128x128 .f32) (h : S29128x128.Reduces [1] S29128) (hφ : FKind.Formats .f32)
    (hacc : (0x00000000#32 : BitVec 32) = FKind.add.neutral .f32 hφ) (p : Fin 29128) :
    multiReduction .add [1] S29128 X 0x00000000#32 h hφ hacc (ix1 p) = ∑ k : Fin 128, X (ix2 p k) := by
  refine (Ideal.multiReduction_add_single X 0x00000000#32 h hφ hacc (ix1 p)).trans ?_
  refine Finset.sum_congr rfl fun k _ => congrArg X ?_
  exact funext fun a => Fin.ext (by match a with | ⟨0, _⟩ => rfl | ⟨1, _⟩ => rfl)

/-- An entry times the broadcast of a column of quotients `one / v`: at row `p`, lane `q` it is the entry times the
    quotient of row `p`. -/
theorem scaled_apply (X : FVec Ideal S29128x128 .f32) (v : FVec Ideal S29128 .f32) (one : Ideal .f32)
    (hc : S29128.ShapeCasts S29128x1) (hb : S29128x1.Broadcasts S29128x128) (p : Fin 29128) (q : Fin 128) :
    mulf X (broadcastTo S29128x128 (divf (broadcast S29128x1 one) (shapeCast S29128x1 v hc)) hb) (ix2 p q)
      = X (ix2 p q) * Ideal.div one (v (ix1 p)) := by
  rw [mulf_apply]
  refine congrArg (X (ix2 p q) * ·) ?_
  refine (Cert.Bridge.Layout.broadcastTo_a1_an_apply _ _ p q).trans ?_
  rw [divf_apply, broadcast_apply]
  exact congrArg (Ideal.div one) (Cert.Bridge.Layout.shapeCast_a_a1_apply _ _ p 0)

/-- The payload at row `p`, lane `q`. -/
theorem pay_apply (X : FVec Ideal S29128x128 .f32) (p : Fin 29128) (q : Fin 128) :
    k0_pay1 (F := Ideal) X (ix2 p q) = X (ix2 p q) * Ideal.div 1 (∑ k : Fin 128, X (ix2 p k)) := by
  unfold k0_pay1
  refine (scaled_apply X _ _ _ _ p q).trans ?_
  refine congrArg (X (ix2 p q) * ·) (congrArg₂ Ideal.div ?_ ?_)
  · exact Cert.Bridge.Split.ofBits_one_f32
  · exact laneSum_apply X _ _ _ p

/-- Blocks that agree on row `p` have the same payload on row `p`. -/
theorem pay_congr_row (X Y : FVec Ideal S29128x128 .f32) (p : Fin 29128)
    (h : ∀ k : Fin 128, X (ix2 p k) = Y (ix2 p k)) (q : Fin 128) :
    k0_pay1 (F := Ideal) X (ix2 p q) = k0_pay1 (F := Ideal) Y (ix2 p q) := by
  rw [pay_apply, pay_apply, h q, Finset.sum_congr rfl fun k _ => h k]

end Cert.KernelIdeal.Hand

end
-- ==== Proof.IdealRun.lean ====
/-
  The idealized kernel's run, with the output named.

  The body works row by row: an entry of the output depends on its own row of the input only. The rows of a block
  that lie inside the array hold the array's entries in all 128 lanes (no block is cut on the lane axis), so on those
  rows the output does not depend on what fills the overhanging rows. That is what lets the data name the output
  buffer (on the rows inside the array) although the overhanging rows of the input buffer hold arbitrary words.
-/
import proofs.«175311_g57389353009667_feedfinal_98_8_alg».proof.Proof.IdealData
import proofs.«175311_g57389353009667_feedfinal_98_8_alg».proof.Proof.IdealPayload

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- On the lane axis no block is cut: every block spans the 128 lanes. -/
theorem lanes_whole : ∀ t : Fin cfg0.N, win0_0.xsize (grid0.coords t) 1 = 128 :=
  (by decide +kernel : ∀ t : Fin grid0.N, win0_0.xsize (grid0.coords t) 1 = 128)

/-- Every lane of a row inside the array is moved by the transfer. -/
theorem moved_row (t : Fin cfg0.N) (p : Fin 29128) (hp : p.val < win0_0.xsize (grid0.coords t) 0) (k : Fin 128) :
    win0_0.moved (grid0.coords t) (ix2 p k) = true :=
  (win0_0.moved_iff _ _).mpr fun a => by
    match a with
    | ⟨0, _⟩ => exact hp
    | ⟨1, _⟩ =>
      show k.val < win0_0.xsize (grid0.coords t) 1
      rw [lanes_whole t]; exact k.isLt

/-- In a row inside the array every lane of a filled block is the block's own entry, whatever fills the overhang. -/
theorem fill_row_indep (t : Fin cfg0.N) (d d' : S29128x128.Idx → EReal) (g : (win0_0.xblock (grid0.coords t)).Idx → EReal)
    (p : Fin 29128) (hp : p.val < win0_0.xsize (grid0.coords t) 0) (k : Fin 128) :
    win0_0.fill (grid0.coords t) d g (ix2 p k) = win0_0.fill (grid0.coords t) d' g (ix2 p k) := by
  have hm := moved_row t p hp k
  unfold Window.fill; rw [dif_pos hm, dif_pos hm]

/-- On the rows inside the array the payload of a filled block does not depend on the filler. -/
theorem cut_pay_indep (t : Fin cfg0.N) (d d' : S29128x128.Idx → EReal) (g : (win0_0.xblock (grid0.coords t)).Idx → EReal) :
    win0_1.cut (grid0.coords t) (k0_pay1 (F := Ideal) (win0_0.fill (grid0.coords t) d g))
      = win0_1.cut (grid0.coords t) (k0_pay1 (F := Ideal) (win0_0.fill (grid0.coords t) d' g)) := by
  funext j
  have hj : (j 0).val < win0_0.xsize (grid0.coords t) 0 := (j 0).isLt
  have e : win0_1.xinj (grid0.coords t) j
      = ix2 (⟨(j 0).val, lt_of_lt_of_le hj (win0_0.xsize_le (grid0.coords t) 0)⟩ : Fin 29128)
          (⟨(j 1).val, lt_of_lt_of_le (j 1).isLt (win0_1.xsize_le (grid0.coords t) 1)⟩ : Fin 128) :=
    funext fun a => Fin.ext (by match a with | ⟨0, _⟩ => rfl | ⟨1, _⟩ => rfl)
  show k0_pay1 _ (win0_1.xinj (grid0.coords t) j) = k0_pay1 _ (win0_1.xinj (grid0.coords t) j)
  rw [e]
  exact pay_congr_row _ _ _ (fun k => fill_row_indep t d d' g _ hj k) _

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- What it returns: each buffer stated on the rows inside the array. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ (∃ d, owns (c : Thread nD τ) (st0_1 t) fullShare
        (win0_1.fill (grid0.coords t) d (win0_1.cut (grid0.coords t) ((dats m 0 c).after 1 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  rw [before0_0 m c t d0, before0_1 m c t d1]
  iapply (sound_kernel (F := Ideal) c Set.univ (grid0.coords t) _ _ _ _ (win0_0.fill (grid0.coords t) d0 (iblk m c 0 t)) _)
  isplitl [H0]; · iexact H0
  isplitl [H1]; · iexists _; iexact H1
  iintro ⟨H0, H1⟩
  isplitl [HΦ]; · iexact HΦ
  isplitl [Ho]; · iexact Ho
  isplitl [H0]
  · iexists d0
    rw [cut_xin]; iexact H0
  · iexists k0_pay1 (win0_0.fill (grid0.coords t) d0 (iblk m c 0 t))
    rw [show win0_1.cut (grid0.coords t) (k0_pay1 (xin m c t))
        = win0_1.cut (grid0.coords t) (k0_pay1 (win0_0.fill (grid0.coords t) d0 (iblk m c 0 t))) from cut_pay_indep t _ _ _,
      Window.fill_cut]
    iexact H1

theorem body_obligation (c : Dev nD) :
    BodyObligationLoose (dats (F := Ideal) m 0 c) (defs₀ (F := Ideal)) Variants.none () Set.univ := fun t => by
  rw [bigSep_W0, bigSep_W0]
  exact sound_body m c t

/-! ## The run and the frame -/

set_option backward.isDefEq.respectTransparency.types false in
/-- Every weakly fair execution of @main terminates, every array of the pipeline at what the library computes from the
    proof data, every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: it runs to the end and leaves its argument array as it was. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Hand

end
-- ==== Proof.Spec.lean ====
/-
  The specification: per-row normalisation of a 2097152 × 128 array over the extended reals.

  Write s(r) for the sum of row r over its 128 lanes. The kernel computes x(r, q) · (1 / s(r)) and the reference
  x(r, q) / s(r). Off zero the quotient a / s is a · s⁻¹, so 1 / s = 1 · s⁻¹ = s⁻¹ and the two agree for every
  extended real numerator — finiteness plays no part. At s = 0 they differ (0 · (1/0) = 0 · ⊤ = 0 while 0 / 0 = ⊥),
  which is why the claim is stated where every row sum is nonzero.
-/
import proofs.«175311_g57389353009667_feedfinal_98_8_alg».proof.Proof.LibSplit
import Idealize.ShloMosaic.PureOps.Ideal
import Idealize.ShloMosaic.Lib.ValueIdx

noncomputable section

namespace Cert.Bridge.RowNorm

open Idealize.ShloMosaic Idealize.ShloMosaic.ValueIdx
open scoped BigOperators

/-- The array's shape. -/
abbrev Arr : Shape := ⟨2, ![2097152, 128]⟩

/-- The sum of row `r` over its 128 lanes. -/
def rowSum (x : Arr.Idx → EReal) (r : Fin 2097152) : EReal := ∑ k : Fin 128, x (ix2 r k)

/-- Each entry times the reciprocal of its row's sum: the kernel's arrangement. -/
def scaled (x : Arr.Idx → EReal) : Arr.Idx → EReal := fun i => x i * Ideal.div 1 (rowSum x (i 0))

/-- Each entry divided by its row's sum: the reference's arrangement. -/
def normed (x : Arr.Idx → EReal) : Arr.Idx → EReal := fun i => Ideal.div (x i) (rowSum x (i 0))

/-- Where no row sums to zero the two arrangements are one function. -/
theorem scaled_eq_normed (x : Arr.Idx → EReal) (h : ∀ r, rowSum x r ≠ 0) : scaled x = normed x :=
  funext fun i => Cert.Bridge.Split.mul_one_div rfl (h (i 0)) (x i)

end Cert.Bridge.RowNorm

end
-- ==== Proof.IdealValue.lean ====
/-
  What the result array holds after the idealized kernel's run: every entry times the reciprocal of its row's sum.

  Point `t` writes back the rows of its block that lie inside the array. Row `p` of block `t` is row 29128·t + p of the
  array, in all 128 lanes, for the input window and the output window alike; so the value stored at (p, q) — the
  block's entry times the reciprocal of the block row's sum — is the array's entry times the reciprocal of the array
  row's sum. The 72 blocks (71 of 29128 rows and a last one of 29064) cover the 2097152 rows: row r lies in block
  r / 29128.
-/
import proofs.«175311_g57389353009667_feedfinal_98_8_alg».proof.Proof.IdealRun
import proofs.«175311_g57389353009667_feedfinal_98_8_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Cert.Bridge.RowNorm
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The printed index maps over the grid: on the row axis a block's index is its point, on the lane axis zero. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- How many rows of block `t` lie inside the array: all 29128, but 29064 of the last. -/
theorem rows_inside : ∀ t : Fin cfg0.N, win0_1.xsize (grid0.coords t) 0 = if t.val = 71 then 29064 else 29128 :=
  (by decide +kernel : ∀ t : Fin grid0.N, _)

/-- What point `t` writes back is block `t` of the scaled array. -/
theorem flushed_eq (c : Dev nD) (t : Fin cfg0.N) :
    (dats m 0 c).flushed 1 t = ((cfg0.win 1).blk t).view.read (Elt Ideal) (scaled (V m c main_arg0)) := by
  show (cfg0.win 1).cut (grid0.coords t) ((dats m 0 c).after 1 t) = _
  rw [after0_1]
  obtain ⟨e0, e1, e2, e3⟩ := idx_facts t
  funext j
  have hj0 : (j 0).val < win0_0.xsize (grid0.coords t) 0 := (j 0).isLt
  have hj1 : (j 1).val < 128 := lt_of_lt_of_le (j 1).isLt (win0_1.xsize_le (grid0.coords t) 1)
  have hp : (j 0).val < 29128 := lt_of_lt_of_le hj0 (win0_0.xsize_le (grid0.coords t) 0)
  -- the array row that this block row is
  obtain ⟨R, hR⟩ : ∃ R : Fin 2097152, R.val = t.val * 29128 + (j 0).val :=
    ⟨(((cfg0.win 1).blk t).view.emb j) 0, by
      show win0_1.index t (0 : Fin 2) * 29128 + 1 * (j 0).val = _
      rw [e2]; omega⟩
  have hemb : ((cfg0.win 1).blk t).view.emb j = ix2 R (⟨(j 1).val, hj1⟩ : Fin 128) := by
    funext a; apply Fin.ext
    match a with
    | ⟨0, _⟩ => show win0_1.index t (0 : Fin 2) * 29128 + 1 * (j 0).val = R.val; rw [e2, hR]; omega
    | ⟨1, _⟩ => show win0_1.index t (1 : Fin 2) * 128 + 1 * (j 1).val = (j 1).val; rw [e3]; omega
  -- row p of the input buffer is row R of the argument array, lane by lane
  have hrow : ∀ k : Fin 128, xin m c t (ix2 (⟨(j 0).val, hp⟩ : Fin 29128) k) = V m c main_arg0 (ix2 R k) := by
    intro k
    have hm := moved_row t ⟨(j 0).val, hp⟩ hj0 k
    unfold xin Window.fill; rw [dif_pos hm]
    show V m c main_arg0 (((cfg0.win 0).blk t).view.emb _) = _
    refine congrArg _ (funext fun a => Fin.ext ?_)
    match a with
    | ⟨0, _⟩ => show win0_0.index t (0 : Fin 2) * 29128 + 1 * (j 0).val = R.val; rw [e0, hR]; omega
    | ⟨1, _⟩ => show win0_0.index t (1 : Fin 2) * 128 + 1 * k.val = k.val; rw [e1]; omega
  have hxinj : win0_1.xinj (grid0.coords t) j = ix2 (⟨(j 0).val, hp⟩ : Fin 29128) (⟨(j 1).val, hj1⟩ : Fin 128) :=
    funext fun a => Fin.ext (by match a with | ⟨0, _⟩ => rfl | ⟨1, _⟩ => rfl)
  show k0_pay1 (xin m c t) (win0_1.xinj (grid0.coords t) j)
    = scaled (V m c main_arg0) (((cfg0.win 1).blk t).view.emb j)
  rw [hemb, hxinj, pay_apply, hrow, Finset.sum_congr rfl fun k _ => hrow k]
  rfl

/-- An index of the array is in point `t`'s block iff its row is among the block's rows inside the array. -/
theorem mem_blk (t : Fin cfg0.N) (i : S2097152x128.Idx) :
    i ∈ ((cfg0.win 1).blk t).view.set ↔ ∀ a : Fin 2, win0_1.index t a * S29128x128.size a ≤ (i a).val
      ∧ (i a).val < win0_1.index t a * S29128x128.size a + win0_1.xsize (grid0.coords t) a := by
  show i ∈ ((View.whole main_v0).slice (win0_1.rect t)).set ↔ _
  rw [View.set_slice_whole, Rect.mem_set_unit]
  exact Iff.rfl

/-- Every index of the array lies in the block of the point its row falls in. -/
theorem covered (i : S2097152x128.Idx) :
    ∃ t : Fin cfg0.N, (cfg0.win 1).flush t = true ∧ i ∈ ((cfg0.win 1).blk t).view.set := by
  have hi0 : (i 0).val < 2097152 := (i 0).isLt
  have hi1 : (i 1).val < 128 := (i 1).isLt
  have ht : (i 0).val / 29128 < 72 := by omega
  let t : Fin cfg0.N := ⟨(i 0).val / 29128, ht⟩
  obtain ⟨e0, e1, e2, e3⟩ := idx_facts t
  have hrows := rows_inside t
  have hl : win0_1.xsize (grid0.coords t) 1 = 128 := lanes_whole t
  have htv : t.val = (i 0).val / 29128 := rfl
  refine ⟨t, flush0_1 t, ?_⟩
  rw [mem_blk]
  intro a
  match a with
  | ⟨0, _⟩ =>
    show win0_1.index t (0 : Fin 2) * 29128 ≤ (i 0).val
      ∧ (i 0).val < win0_1.index t (0 : Fin 2) * 29128 + win0_1.xsize (grid0.coords t) 0
    rw [e2, hrows]
    split <;> omega
  | ⟨1, _⟩ =>
    show win0_1.index t (1 : Fin 2) * 128 ≤ (i 1).val
      ∧ (i 1).val < win0_1.index t (1 : Fin 2) * 128 + win0_1.xsize (grid0.coords t) 1
    rw [e3, hl]; omega

/-- The result array after the run. -/
theorem final (c : Dev nD) : (dats m 0 c).arrAt 1 cfg0.N = scaled (V m c main_arg0) :=
  (dats m 0 c).arrAt_eq_of_cover 1 (scaled (V m c main_arg0)) (fun t _ => flushed_eq m c t) covered

/-- The run, read: the result array at the scaled argument, the argument unchanged. -/
theorem run : θ_run defs (onTc (τ := τ) (main (F := Ideal))) ⟨m, fun _ => 0, ρ⟩ fun r => ∀ c : Dev nD,
      r.2.mem ((c : Thread nD τ).loc main_v0) = scaled (m ((c : Thread nD τ).loc main_arg0))
      ∧ r.2.mem ((c : Thread nD τ).loc main_arg0) = m ((c : Thread nD τ).loc main_arg0) :=
  (θ_run defs _ _).mono (fun r h c => ⟨((h c).1 1).trans (final m c),
      ((h c).1 0).trans (((dats m 0 c).arrAt_in 0 rfl _).trans ((A_eq m c 0).trans (V_main_arg0 m c)))⟩)
    (run_main m ρ)

end Cert.KernelIdeal.Hand

end
-- ==== Proof.RefValue.lean ====
/-
  The reference's result, read entry by entry: each entry of the argument divided by the sum of its row.

  The host program sums each row from the zero word (0 + Σ = Σ), lays the 2097152 sums out as a column, repeats the
  column along the 128 lanes, and divides the argument by it entrywise.
-/
import proofs.«175311_g57389353009667_feedfinal_98_8_alg».proof.Proof.Gen.ReferenceIdeal.Read
import proofs.«175311_g57389353009667_feedfinal_98_8_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.Bridge.RowNorm
open scoped BigOperators

/-- The reference's last stage is the row-normalised array. -/
theorem ref_eq (x : (⟨S2097152x128, .f32⟩ : BufTy).Contents (Elt Ideal)) : val_main_v3 (F := Ideal) x = normed x := by
  funext i
  rw [val_main_v3_apply, val_main_v2_apply, val_main_v1_apply, val_main_v0_apply, val_main_cst_apply]
  show Ideal.div (x i) (Ideal.ofBits .f32 0x00000000#32 + ∑ k : Fin 128, x (idx_main_v0 (idx_main_v1 (idx_main_v2 i)) k))
    = Ideal.div (x i) (rowSum x (i 0))
  rw [Ideal.ofBits_zero_f32, zero_add]
  refine congrArg (Ideal.div (x i)) (Finset.sum_congr rfl fun k _ => congrArg x ?_)
  exact funext fun a => Fin.ext (by match a with | ⟨0, _⟩ => rfl | ⟨1, _⟩ => rfl)

end Cert.ReferenceIdeal.RefValue

end
-- ==== Proof.PreDecode.lean ====
/-
  From the precondition to "no row sums to zero".

  The precondition is the conjunction of two tests of the argument array, each an "all" over a comparison: every entry
  is finite in absolute value, and every row's sum differs from zero. The second test, read at row r, says that the
  sum of row r — taken from the zero word, so the plain sum — is not the zero word's value, which is zero.
-/
import proofs.«175311_g57389353009667_feedfinal_98_8_alg».proof.Pre_finite_inputs
import proofs.«175311_g57389353009667_feedfinal_98_8_alg».proof.Proof.Gen.Pre_finite_inputs
import proofs.«175311_g57389353009667_feedfinal_98_8_alg».proof.Proof.Spec
import Idealize.ShloMosaic.Lib.ReduceAll
import Idealize.ShloMosaic.Lib.Affine
import Idealize.ShloMosaic.Lib.Pipeline.Value
import Idealize.ShloMosaic.PureOps.Ideal.Laws

noncomputable section

namespace Cert.Pre_finite_inputs.Decode

open Cert.Pre_finite_inputs Idealize.ShloMosaic Idealize.ShloMosaic.ValueIdx Cert.Bridge.RowNorm
open scoped BigOperators

instance : Subsingleton S_.Idx := ⟨fun a b => funext fun d => d.elim0⟩

/-- A "not equal" comparison that answers one compared different numbers. -/
theorem ne_of_cmp_une {a b : EReal} (h : Ideal.cmp .une a b = 1#1) : a ≠ b := by
  intro hc
  subst hc
  simp [Ideal.cmp] at h

/-- The same of the float instance's comparison, which is that comparison. -/
theorem ne_of_cmpf_une {φ : FTy} {a b : Ideal φ} (h : FloatOps.cmpf (F := Ideal) .une a b = 1#1) : a ≠ b :=
  ne_of_cmp_une h

variable [Facts]
open Facts

/-- Under the precondition no row of the argument sums to zero. -/
theorem rows_nonzero (x : FVec Ideal S2097152x128 .f32) (h : fn (F := Ideal) x = fun _ => 1#1) (r : Fin 2097152) :
    rowSum x r ≠ 0 := by
  have h0 := congrFun h ix0
  dsimp only [fn] at h0
  have h1 : IntOp.andi _ _ = 1#1 := h0
  obtain ⟨-, h2⟩ := IntOp.andi_eq_one.mp h1
  have h3 := Host.reduce_andi_all _ _ _ _ _ h2 (ix1 r)
  rw [cmpf_apply] at h3
  have h4 := ne_of_cmpf_une h3
  have eR : broadcastInDim S2097152 ![] bcast_S_S2097152 (constant (F := Ideal) S_ .f32 0x00000000#32) (ix1 r) = 0 :=
    (broadcastInDim_apply _ bcast_S_S2097152 _ (ix1 r) ix0 (fun a => a.elim0)).trans Ideal.ofBits_zero_f32
  have eL : Host.reduceAdd x (constant (F := Ideal) S_ .f32 0x00000000#32) reducesTo_S2097152x128_S2097152_d1 h_S_ (ix1 r)
      = rowSum x r := by
    simp only [Host.reduceAdd, Ideal.hostReduceAdd_def]
    rw [Ideal.hostReduceAdd_single reducesTo_S2097152x128_S2097152_d1 (by decide)]
    show Ideal.ofBits .f32 0x00000000#32 + _ = _
    rw [Ideal.ofBits_zero_f32, zero_add]
    exact Finset.sum_congr rfl fun k _ => congrArg x
      (funext fun a => Fin.ext (by match a with | ⟨0, _⟩ => rfl | ⟨1, _⟩ => rfl))
  rw [eL, eR] at h4
  exact h4

end Cert.Pre_finite_inputs.Decode

end
-- ==== Proof.lean ====
/-
  Per-row normalisation of a 2097152 × 128 array: the kernel against its reference, over the extended reals.

  The kernel walks the rows in 72 blocks of 29128 (the last one reaching 64 rows past the array's end); for each row it
  sums the 128 lanes, takes the reciprocal of the sum, and multiplies every entry of the row by it. The reference divides
  every entry by its row's sum. Writing s(r) for the sum of row r:

      kernel     x(r, q) · (1 / s(r))          reference     x(r, q) / s(r).

  Off zero, a / s is a · s⁻¹, so 1 / s = s⁻¹ and the two are the same extended real for every numerator, finite or not
  (Spec). At s(r) = 0 they are not (0 · (1/0) = 0, while 0 / 0 is ⊥), and there the reference itself divides by zero: the
  claim is stated where every row sum is nonzero, and that is the only use of the precondition (PreDecode).

  The pieces:
  * the body, run on whole staging buffers, leaves its payload in the output buffer (WordBody, IdealBody);
  * the payload at (p, q) is X(p, q) · (1 / Σ_k X(p, k)), so a row of the output depends on that row of the input
    alone (IdealPayload) — which is why the rows of the last block that lie inside the array are right whatever the
    overhanging rows hold (IdealRun);
  * block t's rows are the array's rows 29128·t …, and the blocks cover the array, so the result array ends at
    x · (1 / s) entry by entry (IdealValue);
  * the reference's run ends at x / s entry by entry (RefValue);
  * each program runs to the end and leaves its argument as it was: the word-level kernel with its output left unnamed
    (WordRun), the idealized one from the named run (IdealRun), the reference from its run.
  Nothing was rewritten in the idealized kernel, so there is nothing to preserve.
-/
import proofs.«175311_g57389353009667_feedfinal_98_8_alg».proof.Defs
import proofs.«175311_g57389353009667_feedfinal_98_8_alg».proof.Proof.Gen.Kernel
import proofs.«175311_g57389353009667_feedfinal_98_8_alg».proof.Proof.Gen.KernelIdeal
import proofs.«175311_g57389353009667_feedfinal_98_8_alg».proof.Proof.Gen.ReferenceIdeal
import proofs.«175311_g57389353009667_feedfinal_98_8_alg».proof.Proof.Gen.Pre_finite_inputs
import proofs.«175311_g57389353009667_feedfinal_98_8_alg».proof.Proof.Gen.ReferenceIdeal.Run
import proofs.«175311_g57389353009667_feedfinal_98_8_alg».proof.Proof.Gen.ReferenceIdeal.Read
import proofs.«175311_g57389353009667_feedfinal_98_8_alg».proof.Proof.WordRun
import proofs.«175311_g57389353009667_feedfinal_98_8_alg».proof.Proof.IdealValue
import proofs.«175311_g57389353009667_feedfinal_98_8_alg».proof.Proof.RefValue
import proofs.«175311_g57389353009667_feedfinal_98_8_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel runs to the end and leaves its argument unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text: no rewrite to account for. -/
theorem preserves : Cert.preserves_Kernel_KernelIdeal := trivial

/-- From memories agreeing on the argument both programs end, the kernel's result at x · (1 / s) and the reference's at
    x / s, which are one array where no row sums to zero. -/
theorem algebraic : Cert.algebraic_KernelIdeal_ReferenceIdeal := by
  intro m ρ m' ρ' hpre hagree
  refine ⟨fun c => Cert.Bridge.RowNorm.scaled (m ((c.tc : Thread Cert.KernelIdeal.nD Cert.KernelIdeal.τ).loc Cert.KernelIdeal.main_arg0)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.ref_eq, hagree c]
  exact (Cert.Bridge.RowNorm.scaled_eq_normed _ (Cert.Pre_finite_inputs.Decode.rows_nonzero _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
